-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x16 : Shape := ⟨2, ![1048576, 16]⟩
abbrev S_ : Shape := ⟨0, ![]⟩

class Facts : Prop where
  bcast_S_S1048576x16 : S_.BroadcastsInDim S1048576x16 (![] : Fin 0 → Fin S1048576x16.rank)
  reducesTo_S1048576x16_S_d0_1 : S1048576x16.ReducesTo [0, 1] S_
  h_S_ : 0 < S_.numel

variable [Facts]

def fn_part1 {F : FTy → Type} [FloatOps F] (main_v13 : IVec S_ 1) (main_v16 : IVec S1048576x16 1) : IVec S_ 1 :=
  let main_c_5 : IVec S_ 1 := constantI S_ 1 1#1
  let main_v17 : IVec S_ 1 := (fun x v => Host.reduce IntOp.andi x v reducesTo_S1048576x16_S_d0_1 h_S_) main_v16 main_c_5
  let main_v18 : IVec S_ 1 := andi main_v13 main_v17
  main_v18

def fn {F : FTy → Type} [FloatOps F] (main_arg0 : FVec F S1048576x16 .f32) (main_arg1 : FVec F S1048576x16 .f32) (main_arg2 : FVec F S1048576x16 .f32) (main_arg3 : FVec F S1048576x16 .f32) : IVec S_ 1 :=
  let main_v0 : FVec F S1048576x16 .f32 := Host.absf main_arg0
  let main_cst : FVec F S_ .f32 := constant S_ .f32 0x7F800000#32
  let main_v1 : FVec F S1048576x16 .f32 := broadcastInDim S1048576x16 ![] bcast_S_S1048576x16 main_cst
  let main_v2 : IVec S1048576x16 1 := cmpf .olt main_v0 main_v1
  let main_c : IVec S_ 1 := constantI S_ 1 1#1
  let main_v3 : IVec S_ 1 := (fun x v => Host.reduce IntOp.andi x v reducesTo_S1048576x16_S_d0_1 h_S_) main_v2 main_c
  let main_v4 : FVec F S1048576x16 .f32 := Host.absf main_arg1
  let main_cst_0 : FVec F S_ .f32 := constant S_ .f32 0x7F800000#32
  let main_v5 : FVec F S1048576x16 .f32 := broadcastInDim S1048576x16 ![] bcast_S_S1048576x16 main_cst_0
  let main_v6 : IVec S1048576x16 1 := cmpf .olt main_v4 main_v5
  let main_c_1 : IVec S_ 1 := constantI S_ 1 1#1
  let main_v7 : IVec S_ 1 := (fun x v => Host.reduce IntOp.andi x v reducesTo_S1048576x16_S_d0_1 h_S_) main_v6 main_c_1
  let main_v8 : IVec S_ 1 := andi main_v3 main_v7
  let main_v9 : FVec F S1048576x16 .f32 := Host.absf main_arg2
  let main_cst_2 : FVec F S_ .f32 := constant S_ .f32 0x7F800000#32
  let main_v10 : FVec F S1048576x16 .f32 := broadcastInDim S1048576x16 ![] bcast_S_S1048576x16 main_cst_2
  let main_v11 : IVec S1048576x16 1 := cmpf .olt main_v9 main_v10
  let main_c_3 : IVec S_ 1 := constantI S_ 1 1#1
  let main_v12 : IVec S_ 1 := (fun x v => Host.reduce IntOp.andi x v reducesTo_S1048576x16_S_d0_1 h_S_) main_v11 main_c_3
  let main_v13 : IVec S_ 1 := andi main_v8 main_v12
  let main_v14 : FVec F S1048576x16 .f32 := Host.absf main_arg3
  let main_cst_4 : FVec F S_ .f32 := constant S_ .f32 0x7F800000#32
  let main_v15 : FVec F S1048576x16 .f32 := broadcastInDim S1048576x16 ![] bcast_S_S1048576x16 main_cst_4
  let main_v16 : IVec S1048576x16 1 := cmpf .olt main_v14 main_v15
  fn_part1 (F := F) main_v13 main_v16
-- ==== Kernel.lean ====
abbrev S1048576x16 : Shape := ⟨2, ![1048576, 16]⟩
abbrev S2048x16 : Shape := ⟨2, ![2048, 16]⟩
abbrev S2048x1 : Shape := ⟨2, ![2048, 1]⟩
abbrev S2048 : Shape := ⟨1, ![2048]⟩
abbrev S1048576x4x4 : Shape := ⟨3, ![1048576, 4, 4]⟩

abbrev nBuf : Space → Nat
  | .hbm => 7
  | .vmem => 12
  | .smem => 0
  | _ => 0

abbrev bufTy : (tb : Table) → Fin (tcTables nBuf tb) → BufTy
  | .hbm, ⟨0, _⟩ => ⟨S1048576x16, .f32⟩
  | .hbm, ⟨1, _⟩ => ⟨S1048576x16, .f32⟩
  | .hbm, ⟨2, _⟩ => ⟨S1048576x16, .f32⟩
  | .hbm, ⟨3, _⟩ => ⟨S1048576x16, .f32⟩
  | .hbm, ⟨4, _⟩ => ⟨S1048576x16, .f32⟩
  | .hbm, ⟨5, _⟩ => ⟨S1048576x16, .f32⟩
  | .hbm, ⟨6, _⟩ => ⟨S1048576x4x4, .f32⟩
  | .local _ .vmem, ⟨0, _⟩ => ⟨S2048x16, .f32⟩
  | .local _ .vmem, ⟨1, _⟩ => ⟨S2048x16, .f32⟩
  | .local _ .vmem, ⟨2, _⟩ => ⟨S2048x16, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S2048x16, .f32⟩
  | .local _ .vmem, ⟨7, _⟩ => ⟨S2048x16, .f32⟩
  | .local _ .vmem, ⟨8, _⟩ => ⟨S2048x16, .f32⟩
  | .local _ .vmem, ⟨9, _⟩ => ⟨S2048x16, .f32⟩
  | .local _ .vmem, ⟨10, _⟩ => ⟨S2048x16, .f32⟩
  | .local _ .vmem, ⟨11, _⟩ => ⟨S2048x16, .f32⟩
  | _, _ => ⟨S1048576x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2048x16_S2048x16_0_0 : ∀ a, (![0, 0] : Fin 2 → Nat) a + S2048x16.size a ≤ S2048x16.size a
  h_S2048x16 : 0 < S2048x16.numel
  reduces_S2048x16_S2048 : S2048x16.Reduces [1] S2048
  shapeCasts_S2048_S2048x1 : S2048.ShapeCasts S2048x1
  inb_S2048x16_S2048x1_0_0 : ∀ a, (![0, 0] : Fin 2 → Nat) a + S2048x1.size a ≤ S2048x16.size a
  h_S2048x1 : 0 < S2048x1.numel
  inb_S2048x16_S2048x1_0_4 : ∀ a, (![0, 4] : Fin 2 → Nat) a + S2048x1.size a ≤ S2048x16.size a
  inb_S2048x16_S2048x1_0_8 : ∀ a, (![0, 8] : Fin 2 → Nat) a + S2048x1.size a ≤ S2048x16.size a
  inb_S2048x16_S2048x1_0_12 : ∀ a, (![0, 12] : Fin 2 → Nat) a + S2048x1.size a ≤ S2048x16.size a
  inb_S2048x16_S2048x1_0_1 : ∀ a, (![0, 1] : Fin 2 → Nat) a + S2048x1.size a ≤ S2048x16.size a
  inb_S2048x16_S2048x1_0_5 : ∀ a, (![0, 5] : Fin 2 → Nat) a + S2048x1.size a ≤ S2048x16.size a
  inb_S2048x16_S2048x1_0_9 : ∀ a, (![0, 9] : Fin 2 → Nat) a + S2048x1.size a ≤ S2048x16.size a
  inb_S2048x16_S2048x1_0_13 : ∀ a, (![0, 13] : Fin 2 → Nat) a + S2048x1.size a ≤ S2048x16.size a
  inb_S2048x16_S2048x1_0_2 : ∀ a, (![0, 2] : Fin 2 → Nat) a + S2048x1.size a ≤ S2048x16.size a
  inb_S2048x16_S2048x1_0_6 : ∀ a, (![0, 6] : Fin 2 → Nat) a + S2048x1.size a ≤ S2048x16.size a
  inb_S2048x16_S2048x1_0_10 : ∀ a, (![0, 10] : Fin 2 → Nat) a + S2048x1.size a ≤ S2048x16.size a
  inb_S2048x16_S2048x1_0_14 : ∀ a, (![0, 14] : Fin 2 → Nat) a + S2048x1.size a ≤ S2048x16.size a
  inb_S2048x16_S2048x1_0_3 : ∀ a, (![0, 3] : Fin 2 → Nat) a + S2048x1.size a ≤ S2048x16.size a
  inb_S2048x16_S2048x1_0_7 : ∀ a, (![0, 7] : Fin 2 → Nat) a + S2048x1.size a ≤ S2048x16.size a
  inb_S2048x16_S2048x1_0_11 : ∀ a, (![0, 11] : Fin 2 → Nat) a + S2048x1.size a ≤ S2048x16.size a
  inb_S2048x16_S2048x1_0_15 : ∀ a, (![0, 15] : Fin 2 → Nat) a + S2048x1.size a ≤ S2048x16.size a
  broadcasts_S2048x1_S2048x16 : S2048x1.Broadcasts S2048x16
  shapeCasts_S1048576x16_S1048576x4x4 : S1048576x16.ShapeCasts S1048576x4x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S1048576x16.size a
  hwx0_0 : ∀ i : grid0.Coords, EltTy.bits .f32 = 32 ∨ (Rect.block (s := S1048576x16) S2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S1048576x16.size a
  hwx0_1 : ∀ i : grid0.Coords, EltTy.bits .f32 = 32 ∨ (Rect.block (s := S1048576x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S1048576x16.size a
  hwx0_2 : ∀ i : grid0.Coords, EltTy.bits .f32 = 32 ∨ (Rect.block (s := S1048576x16) S2048x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S1048576x16.size a
  hwx0_3 : ∀ i : grid0.Coords, EltTy.bits .f32 = 32 ∨ (Rect.block (s := S1048576x16) S2048x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x16.size a ≤ S1048576x16.size a
  hwx0_4 : ∀ i : grid0.Coords, EltTy.bits .f32 = 32 ∨ (Rect.block (s := S1048576x16) S2048x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x16.size a ≤ S1048576x16.size a
  hwx0_5 : ∀ i : grid0.Coords, EltTy.bits .f32 = 32 ∨ (Rect.block (s := S1048576x16) S2048x16.size (cc0_transform_5 i) (hinb0_5 i)).WholeWords (EltTy.packing .f32)

variable [Facts₀]

abbrev win0_0 : Pipeline.Window sig grid0 :=
  Pipeline.Window.ofSpec (Memref.whole main_arg0) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2048x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2048x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x16 : Shape := ⟨2, ![1048576, 16]⟩
abbrev S1048576x16x1 : Shape := ⟨3, ![1048576, 16, 1]⟩
abbrev S1048576x16x4 : Shape := ⟨3, ![1048576, 16, 4]⟩
abbrev S1048576x4x4 : Shape := ⟨3, ![1048576, 4, 4]⟩
abbrev S_ : Shape := ⟨0, ![]⟩
abbrev S1048576x4 : Shape := ⟨2, ![1048576, 4]⟩
abbrev S1048576x1x4 : Shape := ⟨3, ![1048576, 1, 4]⟩

abbrev nBuf : Space → Nat
  | .hbm => 27
  | .vmem => 0
  | .smem => 0
  | _ => 0

abbrev bufTy : (tb : Table) → Fin (tcTables nBuf tb) → BufTy
  | .hbm, ⟨0, _⟩ => ⟨S1048576x16, .f32⟩
  | .hbm, ⟨1, _⟩ => ⟨S1048576x16, .f32⟩
  | .hbm, ⟨2, _⟩ => ⟨S1048576x16, .f32⟩
  | .hbm, ⟨3, _⟩ => ⟨S1048576x16, .f32⟩
  | .hbm, ⟨4, _⟩ => ⟨S1048576x16x1, .f32⟩
  | .hbm, ⟨5, _⟩ => ⟨S1048576x16x1, .f32⟩
  | .hbm, ⟨6, _⟩ => ⟨S1048576x16x1, .f32⟩
  | .hbm, ⟨7, _⟩ => ⟨S1048576x16x1, .f32⟩
  | .hbm, ⟨8, _⟩ => ⟨S1048576x16x4, .f32⟩
  | .hbm, ⟨9, _⟩ => ⟨S1048576x4x4, .f32⟩
  | .hbm, ⟨10, _⟩ => ⟨S_, .f32⟩
  | .hbm, ⟨11, _⟩ => ⟨S1048576x4, .f32⟩
  | .hbm, ⟨12, _⟩ => ⟨S_, .f32⟩
  | .hbm, ⟨13, _⟩ => ⟨S1048576x4, .f32⟩
  | .hbm, ⟨14, _⟩ => ⟨S1048576x4, .f32⟩
  | .hbm, ⟨15, _⟩ => ⟨S1048576x1x4, .f32⟩
  | .hbm, ⟨16, _⟩ => ⟨S1048576x4x4, .f32⟩
  | .hbm, ⟨17, _⟩ => ⟨S1048576x4x4, .f32⟩
  | .hbm, ⟨18, _⟩ => ⟨S1048576x4x4, .f32⟩
  | .hbm, ⟨19, _⟩ => ⟨S_, .f32⟩
  | .hbm, ⟨20, _⟩ => ⟨S1048576x4, .f32⟩
  | .hbm, ⟨21, _⟩ => ⟨S1048576x1x4, .f32⟩
  | .hbm, ⟨22, _⟩ => ⟨S1048576x4x4, .f32⟩
  | .hbm, ⟨23, _⟩ => ⟨S1048576x4x4, .f32⟩
  | .hbm, ⟨24, _⟩ => ⟨S1048576x16x4, .f32⟩
  | .hbm, ⟨25, _⟩ => ⟨S_, .f32⟩
  | .hbm, ⟨26, _⟩ => ⟨S1048576x16, .f32⟩
  | _, _ => ⟨S1048576x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S1048576x16_S1048576x16x1_0_1 : S1048576x16.BroadcastsInDim S1048576x16x1 (![0, 1] : Fin 2 → Fin S1048576x16x1.rank)
  concatenates_S1048576x16x1_S1048576x16x1_S1048576x16x1_S1048576x16x1_S1048576x16x4_d2 : Shape.Concatenates [S1048576x16x1, S1048576x16x1, S1048576x16x1, S1048576x16x1] S1048576x16x4 2
  reducesTo_S1048576x4x4_S1048576x4_d1 : S1048576x4x4.ReducesTo [1] S1048576x4
  h_S_ : 0 < S_.numel
  bcast_S_S1048576x4 : S_.BroadcastsInDim S1048576x4 (![] : Fin 0 → Fin S1048576x4.rank)
  bcast_S1048576x4_S1048576x1x4_0_2 : S1048576x4.BroadcastsInDim S1048576x1x4 (![0, 2] : Fin 2 → Fin S1048576x1x4.rank)
  bcast_S1048576x1x4_S1048576x4x4_0_1_2 : S1048576x1x4.BroadcastsInDim S1048576x4x4 (![0, 1, 2] : Fin 3 → Fin S1048576x4x4.rank)
  reducesTo_S1048576x16x4_S1048576x16_d2 : S1048576x16x4.ReducesTo [2] S1048576x16
  dot_S1048576x16x4_S1048576x16x4_S1048576x4x4_1_1_2_2_0_0_wf : DotDims.WF S1048576x16x4 S1048576x16x4 S1048576x4x4 [1] [1] [2] [2] [0] [0]
  dot_S1048576x16x4_S1048576x4x4_S1048576x16x4_2_1_1_2_0_0_wf : DotDims.WF S1048576x16x4 S1048576x4x4 S1048576x16x4 [2] [1] [1] [2] [0] [0]

variable [Facts₀]

def dot_S1048576x16x4_S1048576x16x4_S1048576x4x4_1_1_2_2_0_0 : DotDims S1048576x16x4 S1048576x16x4 S1048576x4x4 where
  lhsContracting := [1]
  rhsContracting := [1]
  lhsNonContracting := [2]
  rhsNonContracting := [2]
  lhsBatch := [0]
  rhsBatch := [0]
  wf := dot_S1048576x16x4_S1048576x16x4_S1048576x4x4_1_1_2_2_0_0_wf
def dot_S1048576x16x4_S1048576x4x4_S1048576x16x4_2_1_1_2_0_0 : DotDims S1048576x16x4 S1048576x4x4 S1048576x16x4 where
  lhsContracting := [2]
  rhsContracting := [1]
  lhsNonContracting := [1]
  rhsNonContracting := [2]
  lhsBatch := [0]
  rhsBatch := [0]
  wf := dot_S1048576x16x4_S1048576x4x4_S1048576x16x4_2_1_1_2_0_0_wf

class Facts : Prop extends Facts₀ where

variable [Facts]
-- ==== Proof.AttnSpec.lean ====
/-
  The mathematics of the problem, one row at a time, over the extended reals.

  A row holds four slot vectors x₀ … x₃ of sixteen entries. Their correlations are g i j = Σ_k xᵢ[k]·xⱼ[k]; the weight
  of slot i in column j is w i j = exp (g i j) / Σ_i' exp (g i' j) (a softmax down each column of g); the row's result
  is out[d] = Σ_i xᵢ[d] · (Σ_j w i j).

  Two spellings of these values are stated here. The direct one sums in a fixed left-to-right order and divides by the
  plain column sum. The shifted one first subtracts a number c j from every entry of column j of g, which leaves a
  softmax unchanged when c j is real, and sums the products xᵢ[d] · w i j slot first, column second. Both are functions of
  a row only; the whole-array functions at the end read row r of four arrays of shape [1048576, 16].
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- One row: four slot vectors of sixteen extended reals. -/
abbrev Row := Fin 4 → Fin 16 → EReal

/-- The correlation of slots i and j: Σ_k xᵢ[k]·xⱼ[k]. -/
def gram (X : Row) (i j : Fin 4) : EReal := ∑ k : Fin 16, X i k * X j k

/-! ## The direct spelling -/

/-- exp of the correlation. -/
def ew (X : Row) (i j : Fin 4) : EReal := Ideal.exp (gram X i j)

/-- Column j's normaliser, the four exponentials added in the order 0, 1, 2, 3. -/
def colsum (X : Row) (j : Fin 4) : EReal := ((ew X 0 j + ew X 1 j) + ew X 2 j) + ew X 3 j

/-- The weight of slot i in column j. -/
def att (X : Row) (i j : Fin 4) : EReal := Ideal.div (ew X i j) (colsum X j)

/-- Slot i's total weight over the columns, added from zero in the order 0, 1, 2, 3. -/
def rowsum (X : Row) (i : Fin 4) : EReal := (((0 + att X i 0) + att X i 1) + att X i 2) + att X i 3

/-- The row's result at feature d. -/
def out (X : Row) (d : Fin 16) : EReal :=
  ((X 0 d * rowsum X 0 + X 1 d * rowsum X 1) + X 2 d * rowsum X 2) + X 3 d * rowsum X 3

/-! ## The shifted spelling -/

/-- exp of the correlation less the column's shift. -/
def ewS (X : Row) (c : Fin 4 → EReal) (i j : Fin 4) : EReal := Ideal.exp (gram X i j - c j)

/-- Column j's normaliser of the shifted exponentials, from zero. -/
def colsumS (X : Row) (c : Fin 4 → EReal) (j : Fin 4) : EReal := 0 + ∑ i : Fin 4, ewS X c i j

/-- The weight of slot i in column j, from the shifted exponentials. -/
def attS (X : Row) (c : Fin 4 → EReal) (i j : Fin 4) : EReal := Ideal.div (ewS X c i j) (colsumS X c j)

/-- The row's result at feature d: for each column the weighted sum of the slots, then the columns added from zero. -/
def outS (X : Row) (c : Fin 4 → EReal) (d : Fin 16) : EReal := 0 + ∑ j : Fin 4, ∑ i : Fin 4, X i d * attS X c i j

/-- The shift a numerically careful softmax uses: column j's largest correlation (a fold of max from −∞, then max with −∞
    once more). -/
def colmax (X : Row) (j : Fin 4) : EReal :=
  max ⊥ ((Finset.univ : Finset (Fin 4)).fold max ⊥ (fun i => gram X i j))

/-! ## Whole arrays -/

/-- An array of shape [1048576, 16]. -/
abbrev Arr := (⟨2, ![1048576, 16]⟩ : Shape).Idx → EReal

/-- Row r of four arrays. -/
def rowOf (x0 x1 x2 x3 : Arr) (r : Fin 1048576) : Row := fun i k => (![x0, x1, x2, x3] : Fin 4 → Arr) i (ix2 r k)

/-- Every entry of an array is a real number. -/
def AllReal (x : Arr) : Prop := ∀ j, ∃ v : ℝ, x j = (v : EReal)

/-- The result array [1048576, 16]. -/
def Gout (x0 x1 x2 x3 : Arr) : (⟨2, ![1048576, 16]⟩ : Shape).Idx → EReal :=
  fun j => out (rowOf x0 x1 x2 x3 (j 0)) (j 1)

/-- The weights as [1048576, 4, 4]: entry (r, i, j) is slot i's weight in column j of row r. -/
def Gatt (x0 x1 x2 x3 : Arr) : (⟨3, ![1048576, 4, 4]⟩ : Shape).Idx → EReal :=
  fun j => att (rowOf x0 x1 x2 x3 (j 0)) (j 1) (j 2)

/-- The weights laid flat as [1048576, 16]: column 4·i + j of row r holds slot i's weight in column j. -/
def Gflat (x0 x1 x2 x3 : Arr) : (⟨2, ![1048576, 16]⟩ : Shape).Idx → EReal :=
  fun j => att (rowOf x0 x1 x2 x3 (j 0)) ⟨(j 1).val / 4, Nat.div_lt_of_lt_mul (j 1).isLt⟩ ⟨(j 1).val % 4, Nat.mod_lt _ (by decide)⟩

/-- The same two results in the shifted spelling, with the column maximum as the shift. -/
def GoutS (x0 x1 x2 x3 : Arr) : (⟨2, ![1048576, 16]⟩ : Shape).Idx → EReal :=
  fun j => outS (rowOf x0 x1 x2 x3 (j 0)) (colmax (rowOf x0 x1 x2 x3 (j 0))) (j 1)

def GattS (x0 x1 x2 x3 : Arr) : (⟨3, ![1048576, 4, 4]⟩ : Shape).Idx → EReal :=
  fun j => attS (rowOf x0 x1 x2 x3 (j 0)) (colmax (rowOf x0 x1 x2 x3 (j 0))) (j 1) (j 2)

end Cert.Attn

end
-- ==== Proof.KernelRow.lean ====
/-
  One block of the kernel, row by row.

  A block holds 2048 rows of the four input arrays. The kernel body forms, for every pair of slots (i, j), the column
  vector exp (Σ_k xᵢ[·,k] · xⱼ[·,k]) (a lane sum of a product, kept as a [2048, 1] column), divides each by its column's
  sum, and adds the quotients up per slot. This module reads those columns at a row p: they are the row
  specification's `ew`, `att` and `rowsum` of row p of the block.
-/
import proofs.«112280_j15083925143810_1_alg».proof.Proof.Gen.KernelIdeal.Skeleton
import proofs.«112280_j15083925143810_1_alg».proof.Proof.AttnSpec
import Idealize.ShloMosaic.Lib.Pipeline.Value
import Idealize.ShloMosaic.Lib.ValueIdx
import Idealize.ShloMosaic.PureOps.Ideal.Laws

noncomputable section

namespace Cert.KernelRow

open Cert.KernelIdeal Cert.KernelIdeal.Gen Idealize.ShloMosaic Idealize.ShloMosaic.ValueIdx Cert.Attn

/-- A block of one input: 2048 rows of sixteen entries. -/
abbrev Blk := FVec Ideal S2048x16 .f32
/-- A column over the block's rows. -/
abbrev Col := FVec Ideal S2048x1 .f32

/-- Row p of four blocks. -/
def brow (v : Fin 4 → Blk) (p : Fin 2048) : Row := fun i k => v i (ix2 p k)

/-- A [2048] vector recast as a [2048, 1] column reads, at row p, the vector at p. -/
theorem col_of_vec_apply (u : FVec Ideal S2048 .f32) (p : Fin 2048) :
    shapeCast S2048x1 u shapeCasts_S2048_S2048x1 (ix2 p (0 : Fin 1)) = u (ix1 p) :=
  shapeCast_apply u shapeCasts_S2048_S2048x1 (ix2 p (0 : Fin 1)) (ix1 p) (by
    rw [Shape.rowMajor_val_one, Shape.rowMajor_val_two]; simp)

/-- The lane sum of a block at row p is the sum over the sixteen lanes. -/
theorem lanesum_apply (w : Blk) (hacc : (0x00000000#32 : BitVec 32) = 0x00000000#32) (p : Fin 2048) :
    multiReduction .add [1] S2048 w 0x00000000#32 reduces_S2048x16_S2048 (.inl rfl) hacc (ix1 p)
      = ∑ k : Fin 16, w (ix2 p k) := by
  refine (Ideal.multiReduction_add_single w 0x00000000#32 reduces_S2048x16_S2048 (.inl rfl) hacc (ix1 p)).trans ?_
  refine Finset.sum_congr rfl fun k _ => congrArg w ?_
  funext a
  apply Fin.ext
  rw [Shape.Reduces.lift_val]
  match a with
  | ⟨0, _⟩ => rfl
  | ⟨1, _⟩ => rfl

/-- exp of the lane sum of a product of two blocks, as a column. -/
def edot (a b : Blk) : Col :=
  exp (shapeCast S2048x1 (multiReduction .add [1] S2048 (mulf a b) 0x00000000#32 reduces_S2048x16_S2048 (.inl rfl) rfl)
    shapeCasts_S2048_S2048x1)

/-- At row p it is exp of the two rows' dot product. -/
theorem edot_apply (a b : Blk) (p : Fin 2048) :
    edot a b (ix2 p (0 : Fin 1)) = Ideal.exp (∑ k : Fin 16, a (ix2 p k) * b (ix2 p k)) := by
  show Ideal.exp (shapeCast S2048x1 _ shapeCasts_S2048_S2048x1 (ix2 p (0 : Fin 1))) = _
  rw [col_of_vec_apply, lanesum_apply]
  rfl

/-- Slots i and j of a block: the exponential column is the row specification's `ew`. -/
theorem edot_eq_ew (v : Fin 4 → Blk) (i j : Fin 4) (p : Fin 2048) :
    edot (v i) (v j) (ix2 p (0 : Fin 1)) = ew (brow v p) i j := by
  rw [edot_apply]; rfl

/-- A column broadcast across the sixteen lanes reads, at (p, q), the column at row p. -/
theorem bcol_apply (u : Col) (p : Fin 2048) (q : Fin 16) :
    broadcastTo S2048x16 u broadcasts_S2048x1_S2048x16 (ix2 p q) = u (ix2 p (0 : Fin 1)) :=
  broadcastTo_apply u broadcasts_S2048x1_S2048x16 (ix2 p q) (ix2 p (0 : Fin 1)) (fun a => by
    match a with
    | ⟨0, _⟩ => show p.val = if (2048 : Nat) = 1 then 0 else p.val; rw [if_neg (by decide)]
    | ⟨1, _⟩ => show (0 : Nat) = if (1 : Nat) = 1 then 0 else q.val; rw [if_pos rfl])

/-- Column j's sum of exponentials, added in the order 0, 1, 2, 3. -/
def csum (v : Fin 4 → Blk) (j : Fin 4) : Col :=
  addf (addf (addf (edot (v 0) (v j)) (edot (v 1) (v j))) (edot (v 2) (v j))) (edot (v 3) (v j))

/-- The weight column of slot i in column j. -/
def acol (v : Fin 4 → Blk) (i j : Fin 4) : Col := divf (edot (v i) (v j)) (csum v j)

theorem csum_apply (v : Fin 4 → Blk) (j : Fin 4) (p : Fin 2048) :
    csum v j (ix2 p (0 : Fin 1)) = colsum (brow v p) j := by
  show ((edot (v 0) (v j) (ix2 p (0 : Fin 1)) + edot (v 1) (v j) (ix2 p (0 : Fin 1))) + edot (v 2) (v j) (ix2 p (0 : Fin 1)))
      + edot (v 3) (v j) (ix2 p (0 : Fin 1)) = _
  rw [edot_eq_ew, edot_eq_ew, edot_eq_ew, edot_eq_ew]; rfl

/-- At row p the weight column is the row specification's `att`. -/
theorem acol_apply (v : Fin 4 → Blk) (i j : Fin 4) (p : Fin 2048) :
    acol v i j (ix2 p (0 : Fin 1)) = att (brow v p) i j := by
  show Ideal.div (edot (v i) (v j) (ix2 p (0 : Fin 1))) (csum v j (ix2 p (0 : Fin 1))) = _
  rw [edot_eq_ew, csum_apply]; rfl

/-- The zero column the kernel's accumulators start from. -/
def zcol : Col := broadcast S2048x1 (Scalar.ofBits (F := Ideal) .f32 0x00000000#32)

/-- Slot i's weights added over the four columns, from the zero column. -/
def rcol (v : Fin 4 → Blk) (i : Fin 4) : Col :=
  addf (addf (addf (addf zcol (acol v i 0)) (acol v i 1)) (acol v i 2)) (acol v i 3)

theorem rcol_apply (v : Fin 4 → Blk) (i : Fin 4) (p : Fin 2048) :
    rcol v i (ix2 p (0 : Fin 1)) = rowsum (brow v p) i := by
  show (((Ideal.ofBits .f32 0x00000000#32 + acol v i 0 (ix2 p (0 : Fin 1))) + acol v i 1 (ix2 p (0 : Fin 1)))
      + acol v i 2 (ix2 p (0 : Fin 1))) + acol v i 3 (ix2 p (0 : Fin 1)) = _
  rw [acol_apply, acol_apply, acol_apply, acol_apply, Ideal.ofBits_zero_f32]; rfl

/-- The block of results: each slot's block times its weight column broadcast over the lanes, the four added in order. -/
def oblk (v : Fin 4 → Blk) : Blk :=
  addf (addf (addf (mulf (v 0) (broadcastTo S2048x16 (rcol v 0) broadcasts_S2048x1_S2048x16))
    (mulf (v 1) (broadcastTo S2048x16 (rcol v 1) broadcasts_S2048x1_S2048x16)))
    (mulf (v 2) (broadcastTo S2048x16 (rcol v 2) broadcasts_S2048x1_S2048x16)))
    (mulf (v 3) (broadcastTo S2048x16 (rcol v 3) broadcasts_S2048x1_S2048x16))

/-- At (p, q) it is the row specification's `out` of row p at feature q. -/
theorem oblk_apply (v : Fin 4 → Blk) (p : Fin 2048) (q : Fin 16) :
    oblk v (ix2 p q) = out (brow v p) q := by
  show ((v 0 (ix2 p q) * broadcastTo S2048x16 (rcol v 0) broadcasts_S2048x1_S2048x16 (ix2 p q)
      + v 1 (ix2 p q) * broadcastTo S2048x16 (rcol v 1) broadcasts_S2048x1_S2048x16 (ix2 p q))
      + v 2 (ix2 p q) * broadcastTo S2048x16 (rcol v 2) broadcasts_S2048x1_S2048x16 (ix2 p q))
      + v 3 (ix2 p q) * broadcastTo S2048x16 (rcol v 3) broadcasts_S2048x1_S2048x16 (ix2 p q) = _
  rw [bcol_apply, bcol_apply, bcol_apply, bcol_apply, rcol_apply, rcol_apply, rcol_apply, rcol_apply]; rfl

end Cert.KernelRow

end
-- ==== Proof.KernelBlock.lean ====
/-
  What one grid point leaves in its two output blocks, as functions of the four input blocks.

  The result block is written by one whole-block store: it is `oblk` of the input blocks. The weights block is written
  column by column, sixteen [2048, 1] stores, column 4·i + j holding slot i's weight in column j of the correlation
  matrix: read back, the sixteen columns are one function of the block's index, row p and column c giving the
  row specification's weight `att` of row p at (c / 4, c % 4).
-/
import proofs.«112280_j15083925143810_1_alg».proof.Proof.Gen.KernelIdeal.Frame
import proofs.«112280_j15083925143810_1_alg».proof.Proof.KernelRow

noncomputable section

namespace Cert.KernelBlock

open Cert.KernelIdeal Cert.KernelIdeal.Gen Idealize.ShloMosaic Idealize.ShloMosaic.ValueIdx Cert.Attn Cert.KernelRow

theorem hz : (![0, 0] : Fin 2 → Nat) = fun _ => 0 := funext fun a => by fin_cases a <;> rfl

/-- The result block after the body: the slots' blocks weighted by their total weights and added. -/
theorem out4_eq (x0 x1 x2 x3 : Blk) : out0_4 (F := Ideal) x0 x1 x2 x3 = oblk ![x0, x1, x2, x3] := by
  unfold out0_4
  rw [View.canon_unit_zero hz]
  simp only [View.ld_unit_zero (S := S2048x16) hz]
  rfl

/-- The weights of a block laid flat: row p, column c holds the weight of slot c / 4 in column c % 4. -/
def fblk (v : Fin 4 → Blk) : S2048x16.Idx → EReal :=
  fun y => att (brow v (y 0)) ⟨(y 1).val / 4, Nat.div_lt_of_lt_mul (y 1).isLt⟩ ⟨(y 1).val % 4, Nat.mod_lt _ (by decide)⟩

/-- Read at an index whose coordinates are known. -/
theorem fblk_apply (v : Fin 4 → Blk) (y : S2048x16.Idx) (p : Fin 2048) (i j : Fin 4) (h0 : (y 0).val = p.val)
    (h1 : (y 1).val = 4 * i.val + j.val) : fblk v y = att (brow v p) i j := by
  have e0 : (y 0 : Fin 2048) = p := Fin.ext h0
  have hi := i.isLt
  have hj := j.isLt
  show att (brow v (y 0)) _ _ = _
  rw [e0]
  exact congrArg₂ (att (brow v p)) (Fin.ext (by show (y 1).val / 4 = i.val; omega)) (Fin.ext (by show (y 1).val % 4 = j.val; omega))

/-- The column store at lane c = 4·i + j of slot i's weight column in column j is that column of the flat function. -/
theorem piece_col (v : Fin 4 → Blk) (i j : Fin 4) (c : Nat) (hc : c = 4 * i.val + j.val)
    (inb : ∀ a, (![0, c] : Fin 2 → Nat) a + S2048x1.size a ≤ S2048x16.size a) (x : S2048x1.Idx) :
    acol v i j x = fblk v ((Rect.unit (s := S2048x16) ![0, c] S2048x1.size inb).emb x) := by
  obtain ⟨p, z, rfl⟩ : ∃ (p : Fin 2048) (z : Fin 1), x = ix2 p z := ⟨x 0, x 1, eq_ix2 x⟩
  have hz0 : z = 0 := Subsingleton.elim _ _
  subst hz0
  rw [acol_apply]
  refine (fblk_apply v _ p i j ?_ ?_).symm
  · show 0 + 1 * p.val = p.val; omega
  · show c + 1 * 0 = 4 * i.val + j.val; omega

end Cert.KernelBlock

end
-- ==== Proof.KernelValue.lean ====
/-
  From blocks to whole arrays, on the kernel's side.

  Grid point t works on rows 2048·t … 2048·t + 2047 of every array: each of the six windows has index map t ↦ (t, 0) and
  block [2048, 16]. So row p of the four input blocks at point t is row 2048·t + p of the four argument arrays, what
  point t writes back to the result array is block t of the row-wise function `Gout`, and what it writes back to the
  flat weights array is block t of `Gflat`. The 512 blocks tile each array (row r lies in block r / 2048), so after the
  run the result array is `Gout` and the flat weights array is `Gflat` of the arguments. The program then recasts the
  flat [1048576, 16] weights as [1048576, 4, 4]: entry (r, i, j) is the flat entry (r, 4·i + j), which is `Gatt`.
-/
import proofs.«112280_j15083925143810_1_alg».proof.Proof.Gen.KernelIdeal.Frame
import proofs.«112280_j15083925143810_1_alg».proof.Proof.KernelBlock
import Idealize.ShloMosaic.Lib.Pipeline.Value
import Idealize.ShloMosaic.Lib.ValueIdx
import Idealize.ShloMosaic.Lib.StableHlo.Run

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Cert.Attn Cert.KernelRow Cert.KernelBlock
open Idealize.ShloMosaic.Pipeline (Dat)

variable (m : (ℓ : Loc nD τ sig) → Buf (Elt Ideal) ℓ) (ρ : Dev nD → PrngReg)

/-- Every window's index map sends point t to block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of point t's blocks is this row of the arrays. -/
def grow (t : Fin cfg0.N) (p : Fin 2048) : Fin 1048576 :=
  ⟨t.val * 2048 + p.val, by have hN : grid0.N = 512 := N_0; have ht : t.val < grid0.N := t.isLt; have := p.isLt; omega⟩

theorem blk_read0 (c : Dev nD) (t : Fin cfg0.N) (p : Fin 2048) (k : Fin 16) :
    iblk m c 0 t (ix2 p k) = V m c main_arg0 (ix2 (grow t p) k) := by
  unfold iblk
  show V m c main_arg0 (((cfg0.win 0).blk t).view.emb (ix2 p k)) = _
  refine congrArg (V m c main_arg0) ?_
  obtain ⟨e00, e01, -⟩ := idx_facts t
  funext a; apply Fin.ext
  match a with
  | ⟨0, _⟩ => show win0_0.index t (0 : Fin 2) * 2048 + 1 * p.val = t.val * 2048 + p.val; rw [e00]; omega
  | ⟨1, _⟩ => show win0_0.index t (1 : Fin 2) * 16 + 1 * k.val = k.val; rw [e01]; omega

theorem blk_read1 (c : Dev nD) (t : Fin cfg0.N) (p : Fin 2048) (k : Fin 16) :
    iblk m c 1 t (ix2 p k) = V m c main_arg1 (ix2 (grow t p) k) := by
  unfold iblk
  show V m c main_arg1 (((cfg0.win 1).blk t).view.emb (ix2 p k)) = _
  refine congrArg (V m c main_arg1) ?_
  obtain ⟨-, -, e10, e11, -⟩ := idx_facts t
  funext a; apply Fin.ext
  match a with
  | ⟨0, _⟩ => show win0_1.index t (0 : Fin 2) * 2048 + 1 * p.val = t.val * 2048 + p.val; rw [e10]; omega
  | ⟨1, _⟩ => show win0_1.index t (1 : Fin 2) * 16 + 1 * k.val = k.val; rw [e11]; omega

theorem blk_read2 (c : Dev nD) (t : Fin cfg0.N) (p : Fin 2048) (k : Fin 16) :
    iblk m c 2 t (ix2 p k) = V m c main_arg2 (ix2 (grow t p) k) := by
  unfold iblk
  show V m c main_arg2 (((cfg0.win 2).blk t).view.emb (ix2 p k)) = _
  refine congrArg (V m c main_arg2) ?_
  obtain ⟨-, -, -, -, e20, e21, -⟩ := idx_facts t
  funext a; apply Fin.ext
  match a with
  | ⟨0, _⟩ => show win0_2.index t (0 : Fin 2) * 2048 + 1 * p.val = t.val * 2048 + p.val; rw [e20]; omega
  | ⟨1, _⟩ => show win0_2.index t (1 : Fin 2) * 16 + 1 * k.val = k.val; rw [e21]; omega

theorem blk_read3 (c : Dev nD) (t : Fin cfg0.N) (p : Fin 2048) (k : Fin 16) :
    iblk m c 3 t (ix2 p k) = V m c main_arg3 (ix2 (grow t p) k) := by
  unfold iblk
  show V m c main_arg3 (((cfg0.win 3).blk t).view.emb (ix2 p k)) = _
  refine congrArg (V m c main_arg3) ?_
  obtain ⟨-, -, -, -, -, -, e30, e31, -⟩ := idx_facts t
  funext a; apply Fin.ext
  match a with
  | ⟨0, _⟩ => show win0_3.index t (0 : Fin 2) * 2048 + 1 * p.val = t.val * 2048 + p.val; rw [e30]; omega
  | ⟨1, _⟩ => show win0_3.index t (1 : Fin 2) * 16 + 1 * k.val = k.val; rw [e31]; omega

/-- The four input blocks at point t. -/
def blks (c : Dev nD) (t : Fin cfg0.N) : Fin 4 → Blk := ![iblk m c 0 t, iblk m c 1 t, iblk m c 2 t, iblk m c 3 t]

/-- Row p of point t's input blocks is row 2048·t + p of the argument arrays as the region finds them. -/
theorem brow_blks (c : Dev nD) (t : Fin cfg0.N) (p : Fin 2048) :
    brow (blks m c t) p = rowOf (V m c main_arg0) (V m c main_arg1) (V m c main_arg2) (V m c main_arg3) (grow t p) := by
  funext i k
  match i with
  | ⟨0, _⟩ => exact blk_read0 m c t p k
  | ⟨1, _⟩ => exact blk_read1 m c t p k
  | ⟨2, _⟩ => exact blk_read2 m c t p k
  | ⟨3, _⟩ => exact blk_read3 m c t p k

/-- The flat weights block after the body: the sixteen column stores read back as one function. -/
theorem out5_eq (x0 x1 x2 x3 : Blk) : out0_5 (F := Ideal) x0 x1 x2 x3 = fblk ![x0, x1, x2, x3] := by
  funext y
  unfold out0_5
  simp only [View.ld_unit_zero (S := S2048x16) hz]
  refine View.canon_apply_of_pieces (Val := Elt Ideal) (e := .f32) (fblk ![x0, x1, x2, x3]) _ ?_ y
    (cover0_5 _ _ _ _ _ _ _ _ _ _ _ _ _ _ _ _ y)
  intro pc hpc x
  simp only [List.mem_cons, List.mem_nil_iff, or_false] at hpc
  rcases hpc with rfl | rfl | rfl | rfl | rfl | rfl | rfl | rfl | rfl | rfl | rfl | rfl | rfl | rfl | rfl | rfl
  · exact piece_col ![x0, x1, x2, x3] 3 3 15 rfl inb_S2048x16_S2048x1_0_15 x
  · exact piece_col ![x0, x1, x2, x3] 2 3 11 rfl inb_S2048x16_S2048x1_0_11 x
  · exact piece_col ![x0, x1, x2, x3] 1 3 7 rfl inb_S2048x16_S2048x1_0_7 x
  · exact piece_col ![x0, x1, x2, x3] 0 3 3 rfl inb_S2048x16_S2048x1_0_3 x
  · exact piece_col ![x0, x1, x2, x3] 3 2 14 rfl inb_S2048x16_S2048x1_0_14 x
  · exact piece_col ![x0, x1, x2, x3] 2 2 10 rfl inb_S2048x16_S2048x1_0_10 x
  · exact piece_col ![x0, x1, x2, x3] 1 2 6 rfl inb_S2048x16_S2048x1_0_6 x
  · exact piece_col ![x0, x1, x2, x3] 0 2 2 rfl inb_S2048x16_S2048x1_0_2 x
  · exact piece_col ![x0, x1, x2, x3] 3 1 13 rfl inb_S2048x16_S2048x1_0_13 x
  · exact piece_col ![x0, x1, x2, x3] 2 1 9 rfl inb_S2048x16_S2048x1_0_9 x
  · exact piece_col ![x0, x1, x2, x3] 1 1 5 rfl inb_S2048x16_S2048x1_0_5 x
  · exact piece_col ![x0, x1, x2, x3] 0 1 1 rfl inb_S2048x16_S2048x1_0_1 x
  · exact piece_col ![x0, x1, x2, x3] 3 0 12 rfl inb_S2048x16_S2048x1_0_12 x
  · exact piece_col ![x0, x1, x2, x3] 2 0 8 rfl inb_S2048x16_S2048x1_0_8 x
  · exact piece_col ![x0, x1, x2, x3] 1 0 4 rfl inb_S2048x16_S2048x1_0_4 x
  · exact piece_col ![x0, x1, x2, x3] 0 0 0 rfl inb_S2048x16_S2048x1_0_0 x

/-- Point t's result block at block index y is `Gout` of the arrays at the array index i with i₀ = 2048·t + y₀, i₁ = y₁. -/
theorem oblk_blks_at (c : Dev nD) (t : Fin cfg0.N) (y : S2048x16.Idx) (i : S1048576x16.Idx)
    (h0 : (i 0).val = t.val * 2048 + (y 0).val) (h1 : (i 1).val = (y 1).val) :
    oblk (blks m c t) y = Gout (V m c main_arg0) (V m c main_arg1) (V m c main_arg2) (V m c main_arg3) i := by
  obtain ⟨p, q, rfl⟩ : ∃ (p : Fin 2048) (q : Fin 16), y = ix2 p q := ⟨y 0, y 1, eq_ix2 y⟩
  obtain ⟨r, d, rfl⟩ : ∃ (r : Fin 1048576) (d : Fin 16), i = ix2 r d := ⟨i 0, i 1, eq_ix2 i⟩
  have er : r = grow t p := Fin.ext h0
  have ed : d = q := Fin.ext h1
  subst er ed
  rw [oblk_apply, brow_blks]
  rfl

/-- The same for the flat weights block and `Gflat`. -/
theorem fblk_blks_at (c : Dev nD) (t : Fin cfg0.N) (y : S2048x16.Idx) (i : S1048576x16.Idx)
    (h0 : (i 0).val = t.val * 2048 + (y 0).val) (h1 : (i 1).val = (y 1).val) :
    fblk (blks m c t) y = Gflat (V m c main_arg0) (V m c main_arg1) (V m c main_arg2) (V m c main_arg3) i := by
  obtain ⟨p, q, rfl⟩ : ∃ (p : Fin 2048) (q : Fin 16), y = ix2 p q := ⟨y 0, y 1, eq_ix2 y⟩
  obtain ⟨r, d, rfl⟩ : ∃ (r : Fin 1048576) (d : Fin 16), i = ix2 r d := ⟨i 0, i 1, eq_ix2 i⟩
  have er : r = grow t p := Fin.ext h0
  have ed : d = q := Fin.ext h1
  subst er ed
  show att (brow (blks m c t) p) _ _ = att (rowOf _ _ _ _ (grow t p)) _ _
  rw [brow_blks]

/-- WHAT POINT t WRITES BACK to the result array is block t of `Gout` of the argument arrays. -/
theorem flushed4_eq (c : Dev nD) (t : Fin cfg0.N) :
    (dats m 0 c).flushed 4 t = ((cfg0.win 4).blk t).view.read (Elt Ideal)
      (Gout (V m c main_arg0) (V m c main_arg1) (V m c main_arg2) (V m c main_arg3)) := by
  show (cfg0.win 4).cut (grid0.coords t) ((dats m 0 c).after 4 t) = _
  rw [after0_4, out4_eq (iblk m c 0 t) (iblk m c 1 t) (iblk m c 2 t) (iblk m c 3 t)]
  obtain ⟨-, -, -, -, -, -, -, -, e40, e41, -⟩ := idx_facts t
  funext j
  exact oblk_blks_at m c t j (((cfg0.win 4).blk t).view.emb j)
    (by show win0_4.index t (0 : Fin 2) * 2048 + 1 * (j 0).val = t.val * 2048 + (j 0).val; rw [e40]; omega)
    (by show win0_4.index t (1 : Fin 2) * 16 + 1 * (j 1).val = (j 1).val; rw [e41]; omega)

/-- WHAT POINT t WRITES BACK to the flat weights array is block t of `Gflat` of the argument arrays. -/
theorem flushed5_eq (c : Dev nD) (t : Fin cfg0.N) :
    (dats m 0 c).flushed 5 t = ((cfg0.win 5).blk t).view.read (Elt Ideal)
      (Gflat (V m c main_arg0) (V m c main_arg1) (V m c main_arg2) (V m c main_arg3)) := by
  show (cfg0.win 5).cut (grid0.coords t) ((dats m 0 c).after 5 t) = _
  rw [after0_5, out5_eq (iblk m c 0 t) (iblk m c 1 t) (iblk m c 2 t) (iblk m c 3 t)]
  obtain ⟨-, -, -, -, -, -, -, -, -, -, e50, e51⟩ := idx_facts t
  funext j
  exact fblk_blks_at m c t j (((cfg0.win 5).blk t).view.emb j)
    (by show win0_5.index t (0 : Fin 2) * 2048 + 1 * (j 0).val = t.val * 2048 + (j 0).val; rw [e50]; omega)
    (by show win0_5.index t (1 : Fin 2) * 16 + 1 * (j 1).val = (j 1).val; rw [e51]; omega)

/-- An index of the result array is in point t's block iff each coordinate is in the block's range on its axis. -/
theorem mem_blk4 (t : Fin cfg0.N) (i : S1048576x16.Idx) :
    i ∈ ((cfg0.win 4).blk t).view.set ↔ ∀ a : Fin 2, win0_4.index t a * S2048x16.size a ≤ (i a).val
      ∧ (i a).val < win0_4.index t a * S2048x16.size a + S2048x16.size a := by
  show i ∈ ((View.whole main_v0_0).slice (win0_4.rect t)).set ↔ _
  rw [View.set_slice_whole, Rect.mem_set_unit]
  exact Iff.rfl

theorem mem_blk5 (t : Fin cfg0.N) (i : S1048576x16.Idx) :
    i ∈ ((cfg0.win 5).blk t).view.set ↔ ∀ a : Fin 2, win0_5.index t a * S2048x16.size a ≤ (i a).val
      ∧ (i a).val < win0_5.index t a * S2048x16.size a + S2048x16.size a := by
  show i ∈ ((View.whole main_v0_1).slice (win0_5.rect t)).set ↔ _
  rw [View.set_slice_whole, Rect.mem_set_unit]
  exact Iff.rfl

/-- The point whose block holds row r. -/
def pointOf (i : S1048576x16.Idx) : Fin cfg0.N :=
  ⟨(i 0).val / 2048, by have hN : grid0.N = 512 := N_0; have hi : (i 0).val < 1048576 := (i 0).isLt; show _ < grid0.N; omega⟩

/-- Every index of the result array lies in some point's block: the 512 blocks tile it. -/
theorem cover4 (i : S1048576x16.Idx) :
    ∃ t : Fin cfg0.N, (cfg0.win 4).flush t = true ∧ i ∈ ((cfg0.win 4).blk t).view.set := by
  have hi0 : (i 0).val < 1048576 := (i 0).isLt
  have hi1 : (i 1).val < 16 := (i 1).isLt
  obtain ⟨-, -, -, -, -, -, -, -, e40, e41, -⟩ := idx_facts (pointOf i)
  have ev : (pointOf i).val = (i 0).val / 2048 := rfl
  refine ⟨pointOf i, flush0_4 _, ?_⟩
  rw [mem_blk4]
  intro a
  match a with
  | ⟨0, _⟩ =>
    show win0_4.index (pointOf i) (0 : Fin 2) * 2048 ≤ (i 0).val ∧ (i 0).val < win0_4.index (pointOf i) (0 : Fin 2) * 2048 + 2048
    rw [e40, ev]; omega
  | ⟨1, _⟩ =>
    show win0_4.index (pointOf i) (1 : Fin 2) * 16 ≤ (i 1).val ∧ (i 1).val < win0_4.index (pointOf i) (1 : Fin 2) * 16 + 16
    rw [e41]; omega

theorem cover5 (i : S1048576x16.Idx) :
    ∃ t : Fin cfg0.N, (cfg0.win 5).flush t = true ∧ i ∈ ((cfg0.win 5).blk t).view.set := by
  have hi0 : (i 0).val < 1048576 := (i 0).isLt
  have hi1 : (i 1).val < 16 := (i 1).isLt
  obtain ⟨-, -, -, -, -, -, -, -, -, -, e50, e51⟩ := idx_facts (pointOf i)
  have ev : (pointOf i).val = (i 0).val / 2048 := rfl
  refine ⟨pointOf i, flush0_5 _, ?_⟩
  rw [mem_blk5]
  intro a
  match a with
  | ⟨0, _⟩ =>
    show win0_5.index (pointOf i) (0 : Fin 2) * 2048 ≤ (i 0).val ∧ (i 0).val < win0_5.index (pointOf i) (0 : Fin 2) * 2048 + 2048
    rw [e50, ev]; omega
  | ⟨1, _⟩ =>
    show win0_5.index (pointOf i) (1 : Fin 2) * 16 ≤ (i 1).val ∧ (i 1).val < win0_5.index (pointOf i) (1 : Fin 2) * 16 + 16
    rw [e51]; omega

/-- THE RESULT ARRAY after the run. -/
theorem final4 (c : Dev nD) : (dats m 0 c).arrAt 4 cfg0.N
    = Gout (V m c main_arg0) (V m c main_arg1) (V m c main_arg2) (V m c main_arg3) :=
  (dats m 0 c).arrAt_eq_of_cover 4 (Gout (V m c main_arg0) (V m c main_arg1) (V m c main_arg2) (V m c main_arg3))
    (fun t _ => flushed4_eq m c t) cover4

/-- THE FLAT WEIGHTS ARRAY after the run. -/
theorem final5 (c : Dev nD) : (dats m 0 c).arrAt 5 cfg0.N
    = Gflat (V m c main_arg0) (V m c main_arg1) (V m c main_arg2) (V m c main_arg3) :=
  (dats m 0 c).arrAt_eq_of_cover 5 (Gflat (V m c main_arg0) (V m c main_arg1) (V m c main_arg2) (V m c main_arg3))
    (fun t _ => flushed5_eq m c t) cover5

/-- The flat weights recast as [1048576, 4, 4]: entry (r, i, k) is the flat entry (r, 4·i + k). -/
theorem gatt_of_gflat (a0 a1 a2 a3 : Arr) :
    shapeCast S1048576x4x4 (Gflat a0 a1 a2 a3) shapeCasts_S1048576x16_S1048576x4x4 = Gatt a0 a1 a2 a3 := by
  funext j
  obtain ⟨r, i, k, rfl⟩ : ∃ (r : Fin 1048576) (i : Fin 4) (k : Fin 4), j = ix3 r i k := ⟨j 0, j 1, j 2, eq_ix3 j⟩
  have hi := i.isLt
  have hk := k.isLt
  rw [shapeCast_apply (Gflat a0 a1 a2 a3) shapeCasts_S1048576x16_S1048576x4x4 (ix3 r i k)
    (ix2 r (⟨4 * i.val + k.val, by omega⟩ : Fin 16)) (by
      rw [Shape.rowMajor_val_two, Shape.rowMajor_val_three]
      show r.val * 16 + (4 * i.val + k.val) = (r.val * 4 + i.val) * 4 + k.val
      omega)]
  show att (rowOf a0 a1 a2 a3 r) _ _ = att (rowOf a0 a1 a2 a3 r) i k
  exact congrArg₂ (att (rowOf a0 a1 a2 a3 r)) (Fin.ext (by show (4 * i.val + k.val) / 4 = i.val; omega))
    (Fin.ext (by show (4 * i.val + k.val) % 4 = k.val; omega))

/-- After the region the program's one host operation recasts the flat weights array; its result is `Gatt`. -/
theorem tail_v1 (c : Dev nD) :
    Pipeline.afterTail₀ cfgs (dats m) 0 (V0 m) [hostOps1] c main_v1
      = Gatt (V m c main_arg0) (V m c main_arg1) (V m c main_arg2) (V m c main_arg3) := by
  unfold Pipeline.afterTail₀
  show StableHlo.after hostOps1 _ (Proc.devRef .tc main_v1) = _
  after_results
  have e5 : Pipeline.withArrays (cfgs 0).spec c (V0 m c) (fun w => (dats m 0 c).arrAt w (cfgs 0).N)
      (Proc.devRef .tc main_v0_1) = (dats m 0 c).arrAt 5 cfg0.N :=
    Pipeline.withArrays_arr spec0 launch0.win.arr_inj c _ _ 5
  rw [e5, final5]
  exact gatt_of_gflat _ _ _ _

/-- THE KERNEL'S RUN, READ: every weakly fair execution terminates with the result array at `Gout` and the recast
    weights at `Gatt` of the argument arrays, which end unchanged. -/
theorem kernel_run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v0_0)
        = Cert.Attn.Gout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v1)
        = Cert.Attn.Gatt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run defs _ _).mono (fun r h c => ⟨((h c).1 4).trans (final4 m c),
      ((h c).2 main_v1 (Pipeline.mem_restRefs_of main_v1 rfl (by decide))).trans (tail_v1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelValue

end
-- ==== Proof.RefValue.lean ====
/-
  The reference program's two results, read one index at a time, are the shifted spelling of the specification.

  Row r of the four arguments is a family of four slot vectors. The program stacks the four arguments into an array
  whose entry (r, k, i) is slot i's k-th feature; its first contraction is the table of correlations of the slots; the
  maximum down each column of that table is the column's shift; the exponentials of the shifted correlations, divided
  by their column sums, are the weights (the first result); and the weights contracted with the slots, with the
  columns then added from zero, are the row's output (the second result).
-/
import proofs.«112280_j15083925143810_1_alg».proof.Proof.AttnSpec
import proofs.«112280_j15083925143810_1_alg».proof.Proof.Gen.ReferenceIdeal.Read
import Idealize.ShloMosaic.Lib.Pipeline.Value
import Idealize.ShloMosaic.Lib.ValueIdx
import Idealize.ShloMosaic.PureOps.Ideal.Laws
import Idealize.ShloMosaic.PureOps.Reduce

noncomputable section

namespace Cert.RefRead

open Cert.ReferenceIdeal Cert.ReferenceIdeal.Gen Cert.ReferenceIdeal.Read Idealize.ShloMosaic Idealize.ShloMosaic.ValueIdx
  Idealize.ShloMosaic.TcCoe Idealize.SL.Sem

/-- The four stacked pieces as a function of the piece's number. -/
def pieces {α : Type} {s : Shape} (f0 f1 f2 f3 : s.Idx → α) : Fin 4 → (s.Idx → α) := ![f0, f1, f2, f3]

/-- A list of four pieces of one shape is the list of the pieces' function. -/
theorem list4_eq_ofFn {α : Type} {s : Shape} (f0 f1 f2 f3 : s.Idx → α) :
    ([⟨s, f0⟩, ⟨s, f1⟩, ⟨s, f2⟩, ⟨s, f3⟩] : List ((s : Shape) × (s.Idx → α)))
      = List.ofFn fun n : Fin 4 => (⟨s, pieces f0 f1 f2 f3 n⟩ : (s : Shape) × (s.Idx → α)) := by
  rfl

/-- Reading a concatenation does not depend on how the list of pieces is spelt. -/
theorem concatenate_congr_list {α : Type} {t : Shape} (a : Fin t.rank) (xs ys : List ((s : Shape) × (s.Idx → α)))
    (e : xs = ys) (h : Shape.Concatenates (xs.map (·.1)) t a) (j : t.Idx) :
    concatenate t a xs h j = concatenate t a ys (e ▸ h) j := by
  subst e; rfl

/-- Four pieces [1048576, 16, 1] joined along the last axis: entry (r, k, i) is piece i at (r, k, 0). -/
theorem concat4_apply {α : Type} (f0 f1 f2 f3 : S1048576x16x1.Idx → α)
    (h : Shape.Concatenates
      (([⟨S1048576x16x1, f0⟩, ⟨S1048576x16x1, f1⟩, ⟨S1048576x16x1, f2⟩, ⟨S1048576x16x1, f3⟩] :
        List ((s : Shape) × (s.Idx → α))).map (·.1)) S1048576x16x4 2)
    (r : Fin 1048576) (k : Fin 16) (i : Fin 4) :
    concatenate S1048576x16x4 2 [⟨S1048576x16x1, f0⟩, ⟨S1048576x16x1, f1⟩, ⟨S1048576x16x1, f2⟩, ⟨S1048576x16x1, f3⟩] h
      (ix3 r k i) = pieces f0 f1 f2 f3 i (ix3 r k (0 : Fin 1)) := by
  rw [concatenate_congr_list 2 _ _ (list4_eq_ofFn f0 f1 f2 f3) h]
  refine concatenate_ofFn_unit_apply (t := S1048576x16x4) (s₁ := S1048576x16x1) 2 (pieces f0 f1 f2 f3) _ rfl rfl
    (ix3 r k i) i rfl (ix3 r k (0 : Fin 1)) ?_
  intro b hb
  match b, hb with
  | ⟨0, _⟩, _ => rfl
  | ⟨1, _⟩, _ => rfl
  | ⟨2, _⟩, hb => exact absurd rfl hb

/-- The stacked array: entry (r, k, i) is argument i at (r, k). -/
theorem v4_apply (x0 x1 x2 x3 : (⟨S1048576x16, .f32⟩ : BufTy).Contents (Elt Ideal)) (r : Fin 1048576) (k : Fin 16)
    (i : Fin 4) :
    val_main_v4 (F := Ideal) x0 x1 x2 x3 (ix3 r k i) = (![x0, x1, x2, x3] : Fin 4 → _) i (ix2 r k) := by
  unfold val_main_v4
  rw [concat4_apply]
  have e : ∀ (x : (⟨S1048576x16, .f32⟩ : BufTy).Contents (Elt Ideal)),
      idx_main_v0 (ix3 r k (0 : Fin 1)) = ix2 r k := fun _ =>
    funext fun a => Fin.ext (by match a with | ⟨0, _⟩ => rfl | ⟨1, _⟩ => rfl)
  match i with
  | ⟨0, _⟩ => exact (val_main_v0_apply x0 _).trans (congrArg x0 (e x0))
  | ⟨1, _⟩ => exact (val_main_v1_apply x1 _).trans (congrArg x1 (e x1))
  | ⟨2, _⟩ => exact (val_main_v2_apply x2 _).trans (congrArg x2 (e x2))
  | ⟨3, _⟩ => exact (val_main_v3_apply x3 _).trans (congrArg x3 (e x3))

/-- The first contraction is the table of the slots' correlations. -/
theorem v5_apply (x0 x1 x2 x3 : (⟨S1048576x16, .f32⟩ : BufTy).Contents (Elt Ideal)) (r : Fin 1048576) (i j : Fin 4) :
    val_main_v5 (F := Ideal) x0 x1 x2 x3 (ix3 r i j) = Cert.Attn.gram (Cert.Attn.rowOf x0 x1 x2 x3 r) i j := by
  rw [val_main_v5_apply]
  unfold Cert.Attn.gram Cert.Attn.rowOf
  refine Finset.sum_congr rfl fun k _ => ?_
  have el : lidx_main_v5 (ix3 r i j) k = ix3 r k i :=
    funext fun a => Fin.ext (by match a with | ⟨0, _⟩ => rfl | ⟨1, _⟩ => rfl | ⟨2, _⟩ => rfl)
  have er : ridx_main_v5 (ix3 r i j) k = ix3 r k j :=
    funext fun a => Fin.ext (by match a with | ⟨0, _⟩ => rfl | ⟨1, _⟩ => rfl | ⟨2, _⟩ => rfl)
  rw [el, er, v4_apply, v4_apply]

/-- The bit pattern of −∞ is the bottom element. -/
theorem ofBits_negInf : Ideal.ofBits .f32 0xFF800000#32 = ⊥ := by simp [Ideal.ofBits, Ideal.ieee]

/-- A maximum taken down the middle axis of a [1048576, 4, 4] array, at (r, j): the fold of max over the four entries
    (r, i, j). -/
theorem reduceMax_mid (y : S1048576x4x4.Idx → Ideal .f32) (init : S_.Idx → Ideal .f32) (r : Fin 1048576) (j : Fin 4) :
    Host.reduce (FloatOps.maximumf (F := Ideal) (φ := .f32)) y init reducesTo_S1048576x4x4_S1048576x4_d1 h_S_ (ix2 r j)
      = (Finset.univ : Finset (Fin 4)).fold max (init (Shape.Idx.first h_S_)) (fun i => y (ix3 r i j)) := by
  rw [Host.reduce_eq_fold_single FloatOps.maximumf y init reducesTo_S1048576x4x4_S1048576x4_d1 (by decide) h_S_]
  have hf : (y ∘ Shape.Reduces.lift (s := S1048576x4x4) (a := 1) (t := S1048576x4) (by decide) (ix2 r j))
      = fun i : Fin 4 => y (ix3 r i j) :=
    funext fun k => congrArg y (funext fun a => Fin.ext (by match a with | ⟨0, _⟩ => rfl | ⟨1, _⟩ => rfl | ⟨2, _⟩ => rfl))
  exact congrArg (fun f => Finset.fold max (init (Shape.Idx.first h_S_)) f (Finset.univ : Finset (Fin 4))) hf

/-- The column maximum, as the program computes it, is the specification's shift. -/
theorem v8_apply (x0 x1 x2 x3 : (⟨S1048576x16, .f32⟩ : BufTy).Contents (Elt Ideal)) (r : Fin 1048576) (j : Fin 4) :
    val_main_v8 (F := Ideal) x0 x1 x2 x3 (ix2 r j) = Cert.Attn.colmax (Cert.Attn.rowOf x0 x1 x2 x3 r) j := by
  rw [val_main_v8_apply, val_main_v7_apply, val_main_cst_0_apply]
  unfold val_main_v6
  rw [reduceMax_mid, val_main_cst_apply]
  simp only [Ideal.maximumf_def, Ideal.ofBits_def, ofBits_negInf]
  unfold Cert.Attn.colmax
  refine congrArg (max ⊥) ?_
  exact congrArg (fun f => Finset.fold max ⊥ f (Finset.univ : Finset (Fin 4))) (funext fun i => v5_apply x0 x1 x2 x3 r i j)

/-- The shift broadcast back over the slots: entry (r, i, j) is column j's shift. -/
theorem v10_apply (x0 x1 x2 x3 : (⟨S1048576x16, .f32⟩ : BufTy).Contents (Elt Ideal)) (r : Fin 1048576) (i j : Fin 4) :
    val_main_v10 (F := Ideal) x0 x1 x2 x3 (ix3 r i j) = Cert.Attn.colmax (Cert.Attn.rowOf x0 x1 x2 x3 r) j := by
  rw [val_main_v10_apply, val_main_v9_apply, ← v8_apply]
  exact congrArg (val_main_v8 (F := Ideal) x0 x1 x2 x3)
    (funext fun a => Fin.ext (by match a with | ⟨0, _⟩ => rfl | ⟨1, _⟩ => rfl))

/-- The exponentials of the shifted correlations. -/
theorem v12_apply (x0 x1 x2 x3 : (⟨S1048576x16, .f32⟩ : BufTy).Contents (Elt Ideal)) (r : Fin 1048576) (i j : Fin 4) :
    val_main_v12 (F := Ideal) x0 x1 x2 x3 (ix3 r i j)
      = Cert.Attn.ewS (Cert.Attn.rowOf x0 x1 x2 x3 r) (Cert.Attn.colmax (Cert.Attn.rowOf x0 x1 x2 x3 r)) i j := by
  rw [val_main_v12_apply, val_main_v11_apply, v5_apply, v10_apply]
  simp only [Ideal.hostUnary_exp_def, Ideal.subf_def]
  rfl

/-- The column sums of the exponentials, from zero. -/
theorem v13_apply (x0 x1 x2 x3 : (⟨S1048576x16, .f32⟩ : BufTy).Contents (Elt Ideal)) (r : Fin 1048576) (j : Fin 4) :
    val_main_v13 (F := Ideal) x0 x1 x2 x3 (ix2 r j)
      = Cert.Attn.colsumS (Cert.Attn.rowOf x0 x1 x2 x3 r) (Cert.Attn.colmax (Cert.Attn.rowOf x0 x1 x2 x3 r)) j := by
  rw [val_main_v13_apply, val_main_cst_1_apply]
  simp only [Ideal.ofBits_def, Ideal.ofBits_zero_f32]
  unfold Cert.Attn.colsumS
  refine congrArg (0 + ·) (Finset.sum_congr rfl fun i _ => ?_)
  rw [← v12_apply]
  exact congrArg (val_main_v12 (F := Ideal) x0 x1 x2 x3)
    (funext fun a => Fin.ext (by match a with | ⟨0, _⟩ => rfl | ⟨1, _⟩ => rfl | ⟨2, _⟩ => rfl))

/-- The column sums broadcast back over the slots. -/
theorem v15_apply (x0 x1 x2 x3 : (⟨S1048576x16, .f32⟩ : BufTy).Contents (Elt Ideal)) (r : Fin 1048576) (i j : Fin 4) :
    val_main_v15 (F := Ideal) x0 x1 x2 x3 (ix3 r i j)
      = Cert.Attn.colsumS (Cert.Attn.rowOf x0 x1 x2 x3 r) (Cert.Attn.colmax (Cert.Attn.rowOf x0 x1 x2 x3 r)) j := by
  rw [val_main_v15_apply, val_main_v14_apply, ← v13_apply]
  exact congrArg (val_main_v13 (F := Ideal) x0 x1 x2 x3)
    (funext fun a => Fin.ext (by match a with | ⟨0, _⟩ => rfl | ⟨1, _⟩ => rfl))

/-- The weights. -/
theorem v16_apply (x0 x1 x2 x3 : (⟨S1048576x16, .f32⟩ : BufTy).Contents (Elt Ideal)) (r : Fin 1048576) (i j : Fin 4) :
    val_main_v16 (F := Ideal) x0 x1 x2 x3 (ix3 r i j)
      = Cert.Attn.attS (Cert.Attn.rowOf x0 x1 x2 x3 r) (Cert.Attn.colmax (Cert.Attn.rowOf x0 x1 x2 x3 r)) i j := by
  rw [val_main_v16_apply, v12_apply, v15_apply]
  simp only [Ideal.hostDivf_def]
  rfl

/-- The second contraction: for feature d and column j, the weighted sum of the slots. -/
theorem v17_apply (x0 x1 x2 x3 : (⟨S1048576x16, .f32⟩ : BufTy).Contents (Elt Ideal)) (r : Fin 1048576) (d : Fin 16)
    (j : Fin 4) :
    val_main_v17 (F := Ideal) x0 x1 x2 x3 (ix3 r d j)
      = ∑ i : Fin 4, Cert.Attn.rowOf x0 x1 x2 x3 r i d
          * Cert.Attn.attS (Cert.Attn.rowOf x0 x1 x2 x3 r) (Cert.Attn.colmax (Cert.Attn.rowOf x0 x1 x2 x3 r)) i j := by
  rw [val_main_v17_apply]
  refine Finset.sum_congr rfl fun i _ => ?_
  have el : lidx_main_v17 (ix3 r d j) i = ix3 r d i :=
    funext fun a => Fin.ext (by match a with | ⟨0, _⟩ => rfl | ⟨1, _⟩ => rfl | ⟨2, _⟩ => rfl)
  have er : ridx_main_v17 (ix3 r d j) i = ix3 r i j :=
    funext fun a => Fin.ext (by match a with | ⟨0, _⟩ => rfl | ⟨1, _⟩ => rfl | ⟨2, _⟩ => rfl)
  rw [el, er, v4_apply, v16_apply]
  rfl

/-- The row's output: the columns added from zero. -/
theorem v18_apply (x0 x1 x2 x3 : (⟨S1048576x16, .f32⟩ : BufTy).Contents (Elt Ideal)) (r : Fin 1048576) (d : Fin 16) :
    val_main_v18 (F := Ideal) x0 x1 x2 x3 (ix2 r d)
      = Cert.Attn.outS (Cert.Attn.rowOf x0 x1 x2 x3 r) (Cert.Attn.colmax (Cert.Attn.rowOf x0 x1 x2 x3 r)) d := by
  rw [val_main_v18_apply, val_main_cst_2_apply]
  simp only [Ideal.ofBits_def, Ideal.ofBits_zero_f32]
  unfold Cert.Attn.outS
  refine congrArg (0 + ·) (Finset.sum_congr rfl fun j _ => ?_)
  rw [← v17_apply]
  exact congrArg (val_main_v17 (F := Ideal) x0 x1 x2 x3)
    (funext fun a => Fin.ext (by match a with | ⟨0, _⟩ => rfl | ⟨1, _⟩ => rfl | ⟨2, _⟩ => rfl))

/-- The program's weights are the specification's, in the shifted spelling. -/
theorem ref_att_eq (x0 x1 x2 x3 : (⟨S1048576x16, .f32⟩ : BufTy).Contents (Elt Ideal)) :
    val_main_v16 (F := Ideal) x0 x1 x2 x3 = Cert.Attn.GattS x0 x1 x2 x3 := by
  funext idx
  obtain ⟨r, i, j, rfl⟩ : ∃ (r : Fin 1048576) (i : Fin 4) (j : Fin 4), idx = ix3 r i j :=
    ⟨idx 0, idx 1, idx 2, eq_ix3 idx⟩
  rw [v16_apply]
  rfl

/-- The program's output is the specification's, in the shifted spelling. -/
theorem ref_out_eq (x0 x1 x2 x3 : (⟨S1048576x16, .f32⟩ : BufTy).Contents (Elt Ideal)) :
    val_main_v18 (F := Ideal) x0 x1 x2 x3 = Cert.Attn.GoutS x0 x1 x2 x3 := by
  funext idx
  obtain ⟨r, d, rfl⟩ : ∃ (r : Fin 1048576) (d : Fin 16), idx = ix2 r d := ⟨idx 0, idx 1, eq_ix2 idx⟩
  rw [v18_apply]
  rfl

end Cert.RefRead

end
-- ==== Proof.RefRun.lean ====
/-
  The reference program's run, with its two results stated as the specification's functions.

  Every weakly fair execution of the reference from a memory m with zero counters terminates; its first result
  buffer then holds the shifted spelling of the row outputs of the four argument arrays, its second the shifted
  spelling of the weights, and the four argument arrays are as they were in m.
-/
import proofs.«112280_j15083925143810_1_alg».proof.Proof.RefValue
import proofs.«112280_j15083925143810_1_alg».proof.Proof.Gen.ReferenceIdeal.Run

noncomputable section

namespace Cert.RefRead

open Cert.ReferenceIdeal Cert.ReferenceIdeal.Gen Cert.ReferenceIdeal.Read Idealize.ShloMosaic Idealize.ShloMosaic.ValueIdx
  Idealize.ShloMosaic.TcCoe Idealize.SL.Sem

/-- The reference terminates and leaves its four argument arrays unchanged. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono (fun _ h c => (h c).2.2) (Cert.ReferenceIdeal.Value.run (F := Ideal) m ρ)

/-- The reference terminates with the row outputs and the weights of the specification's shifted spelling in its two
    result buffers, the argument arrays unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v18) = Cert.Attn.GoutS (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v16) = Cert.Attn.GattS (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono
    (fun _ h c => ⟨(h c).1.trans ((val_main_v18_eq m c).trans (ref_out_eq _ _ _ _)),
      (h c).2.1.trans ((val_main_v16_eq m c).trans (ref_att_eq _ _ _ _)), (h c).2.2⟩)
    (Cert.ReferenceIdeal.Value.run (F := Ideal) m ρ)

end Cert.RefRead

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.FiniteArgs.lean ====
/-
  From the certificate's precondition to "every entry of every argument array is a real number".

  The precondition tests each of the four arguments the same way: take absolute values, compare each entry with +∞
  (the splat of the word 0x7F800000), and fold the answers by "and" over both axes; the four verdicts are then joined by
  "and" as ((t₀ ∧ t₁) ∧ t₂) ∧ t₃. An "and" of bits is one exactly when both bits are one, so the precondition
  answering one gives each argument's verdict separately; and a verdict of one says every entry x satisfies |x| < +∞,
  which excludes both infinities and leaves a real number.
-/
import proofs.«112280_j15083925143810_1_alg».proof.Proof.AttnSpec
import proofs.«112280_j15083925143810_1_alg».proof.Proof.LibRealEntries
import proofs.«112280_j15083925143810_1_alg».proof.Pre_finite_inputs
import Idealize.ShloMosaic.Lib.ReduceAll
import Idealize.ShloMosaic.Lib.Affine
import Idealize.ShloMosaic.Lib.ValueIdx

noncomputable section

namespace Cert.FiniteArgs

open Idealize.ShloMosaic Cert.Pre_finite_inputs

/-- One argument: if the conjunction over every entry of "the absolute value is below +∞" answers one, every entry is a
    real number. The bound is the splat of the word of +∞, so each of its entries is that word's value. -/
private theorem one_arg [Facts] (x : FVec Ideal S1048576x16 .f32)
    (e : Host.reduce IntOp.andi
        (cmpf .olt (Host.absf x)
          (broadcastInDim S1048576x16 ![] Facts.bcast_S_S1048576x16 (constant (F := Ideal) S_ .f32 0x7F800000#32)))
        (constantI S_ 1 1#1) Facts.reducesTo_S1048576x16_S_d0_1 Facts.h_S_ ValueIdx.ix0 = 1#1) :
    Cert.Attn.AllReal x := by
  haveI : Subsingleton S_.Idx := ⟨fun a b => funext fun d => d.elim0⟩
  have hx : Cert.Lib.AllReal x :=
    Cert.Lib.allReal_of_all_abs_lt x _ (fun _ => rfl) Facts.reducesTo_S1048576x16_S_d0_1 _ Facts.h_S_ ValueIdx.ix0 e
  exact fun j => hx j

/-- The precondition is the conjunction of the four arguments' finiteness tests, joined as ((t₀ ∧ t₁) ∧ t₂) ∧ t₃. -/
theorem args_real [Cert.Pre_finite_inputs.Facts] (x0 x1 x2 x3 : FVec Ideal Cert.Pre_finite_inputs.S1048576x16 .f32)
    (h : Cert.Pre_finite_inputs.fn (F := Ideal) x0 x1 x2 x3 = (fun _ => 1#1)) :
    Cert.Attn.AllReal x0 ∧ Cert.Attn.AllReal x1 ∧ Cert.Attn.AllReal x2 ∧ Cert.Attn.AllReal x3 := by
  have h0 := congrFun h ValueIdx.ix0
  dsimp only [Cert.Pre_finite_inputs.fn, Cert.Pre_finite_inputs.fn_part1] at h0
  change IntOp.andi (IntOp.andi (IntOp.andi _ _) _) _ = 1#1 at h0
  rw [IntOp.andi_eq_one, IntOp.andi_eq_one, IntOp.andi_eq_one] at h0
  obtain ⟨⟨⟨e0, e1⟩, e2⟩, e3⟩ := h0
  exact ⟨one_arg x0 e0, one_arg x1 e1, one_arg x2 e2, one_arg x3 e3⟩

end Cert.FiniteArgs

end
-- ==== Proof.AttnLaw.lean ====
/-
  The law joining the two spellings of one row's softmax, over the extended reals.

  When every entry of a row is a real number, every correlation g i j is real, every exponential is a positive real and
  every column sum is a positive real. Subtracting a real number c j from column j of g multiplies each exponential of
  that column, and hence the column's sum, by the same positive real exp (−c j), so the quotient is unchanged: the
  shifted weights are the direct ones. The row's result is then a finite sum of products of real numbers, and the two
  orders of summation (slot first or column first) agree by distributivity and commutativity of real addition. Both
  facts fail at the infinities, which is why the hypothesis asks for real entries. The column maximum is one of the
  four real correlations of its column, hence real, so it is an admissible shift.
-/
import proofs.«112280_j15083925143810_1_alg».proof.Proof.AttnSpec

noncomputable section

namespace Cert.Attn

open Idealize.ShloMosaic Idealize.ShloMosaic.ValueIdx

/-- Every entry of the row is a real number. -/
def RowReal (X : Row) : Prop := ∀ i k, ∃ v : ℝ, X i k = (v : EReal)

/-! ## Finite sums and folds of real numbers inside the extended reals -/

/-- A finite sum of real numbers, taken in the extended reals, is the real sum. -/
private theorem coe_sum {ι : Type} [DecidableEq ι] (s : Finset ι) (f : ι → ℝ) :
    (∑ i ∈ s, (f i : EReal)) = ((∑ i ∈ s, f i : ℝ) : EReal) := by
  refine Finset.induction_on s ?_ ?_
  · simp
  · intro a s ha ih
    rw [Finset.sum_insert ha, Finset.sum_insert ha, ih, EReal.coe_add]

/-- A fold of max from −∞ over real numbers is −∞ or a real number. -/
private theorem fold_max_coe_or {ι : Type} [DecidableEq ι] (s : Finset ι) (f : ι → ℝ) :
    (s.fold max ⊥ (fun i => (f i : EReal)) = ⊥) ∨
      ∃ v : ℝ, s.fold max ⊥ (fun i => (f i : EReal)) = (v : EReal) := by
  refine Finset.induction_on s ?_ ?_
  · left; exact Finset.fold_empty
  · intro a s ha ih
    right
    rw [Finset.fold_insert ha]
    rcases ih with h | ⟨v, h⟩
    · rw [h]; exact ⟨f a, max_eq_left bot_le⟩
    · rw [h]
      rcases le_total (f a) v with hle | hle
      · exact ⟨v, max_eq_right (EReal.coe_le_coe_iff.mpr hle)⟩
      · exact ⟨f a, max_eq_left (EReal.coe_le_coe_iff.mpr hle)⟩

/-- Over a nonempty index set the fold is a real number. -/
private theorem fold_max_coe {ι : Type} [DecidableEq ι] (s : Finset ι) (hs : s.Nonempty) (f : ι → ℝ) :
    ∃ v : ℝ, s.fold max ⊥ (fun i => (f i : EReal)) = (v : EReal) := by
  obtain ⟨a, ha⟩ := hs
  rw [← Finset.insert_erase ha, Finset.fold_insert (Finset.notMem_erase a s)]
  rcases fold_max_coe_or (s.erase a) f with h | ⟨v, h⟩
  · rw [h]; exact ⟨f a, max_eq_left bot_le⟩
  · rw [h]
    rcases le_total (f a) v with hle | hle
    · exact ⟨v, max_eq_right (EReal.coe_le_coe_iff.mpr hle)⟩
    · exact ⟨f a, max_eq_left (EReal.coe_le_coe_iff.mpr hle)⟩

/-! ## The correlations and the column maximum are real -/

theorem gram_real (X : Row) (h : RowReal X) (i j : Fin 4) : ∃ v : ℝ, gram X i j = (v : EReal) := by
  choose x hx using h
  refine ⟨∑ k : Fin 16, x i k * x j k, ?_⟩
  unfold gram
  simp only [hx, ← EReal.coe_mul]
  exact coe_sum Finset.univ (fun k => x i k * x j k)

theorem colmax_real (X : Row) (h : RowReal X) (j : Fin 4) : ∃ v : ℝ, colmax X j = (v : EReal) := by
  choose g hg using gram_real X h
  have hf : (fun i => gram X i j) = fun i => ((g i j : ℝ) : EReal) := funext fun i => hg i j
  obtain ⟨v, hv⟩ := fold_max_coe (Finset.univ : Finset (Fin 4)) ⟨0, Finset.mem_univ 0⟩ (fun i => g i j)
  refine ⟨v, ?_⟩
  unfold colmax
  rw [hf, hv]
  exact max_eq_right bot_le

/-! ## The weights as real quotients -/

/-- The direct weight, when the correlations are the real numbers g. -/
private theorem att_coe (X : Row) (g : Fin 4 → Fin 4 → ℝ) (hg : ∀ i j, gram X i j = (g i j : EReal))
    (i j : Fin 4) :
    att X i j = ((Real.exp (g i j) /
      (Real.exp (g 0 j) + Real.exp (g 1 j) + Real.exp (g 2 j) + Real.exp (g 3 j)) : ℝ) : EReal) := by
  have hE : ∀ i, ew X i j = ((Real.exp (g i j) : ℝ) : EReal) := by
    intro i; unfold ew; rw [hg, Ideal.exp_coe]
  have hS : colsum X j =
      ((Real.exp (g 0 j) + Real.exp (g 1 j) + Real.exp (g 2 j) + Real.exp (g 3 j) : ℝ) : EReal) := by
    unfold colsum; rw [hE, hE, hE, hE]; simp only [EReal.coe_add]
  have hpos : Real.exp (g 0 j) + Real.exp (g 1 j) + Real.exp (g 2 j) + Real.exp (g 3 j) ≠ 0 := by
    positivity
  unfold att
  rw [hS, hE, Ideal.div_coe hpos, ← EReal.coe_mul, mul_one_div]

/-- The shifted weight, when the correlations are the real numbers g and the shifts the real numbers cr. -/
private theorem attS_coe (X : Row) (g : Fin 4 → Fin 4 → ℝ) (hg : ∀ i j, gram X i j = (g i j : EReal))
    (c : Fin 4 → EReal) (cr : Fin 4 → ℝ) (hc : ∀ j, c j = (cr j : EReal)) (i j : Fin 4) :
    attS X c i j = ((Real.exp (g i j - cr j) /
      (Real.exp (g 0 j - cr j) + Real.exp (g 1 j - cr j) + Real.exp (g 2 j - cr j) +
        Real.exp (g 3 j - cr j)) : ℝ) : EReal) := by
  have hE : ∀ i, ewS X c i j = ((Real.exp (g i j - cr j) : ℝ) : EReal) := by
    intro i; unfold ewS; rw [hg, hc, ← EReal.coe_sub, Ideal.exp_coe]
  have hS : colsumS X c j =
      ((Real.exp (g 0 j - cr j) + Real.exp (g 1 j - cr j) + Real.exp (g 2 j - cr j) +
        Real.exp (g 3 j - cr j) : ℝ) : EReal) := by
    unfold colsumS; rw [Fin.sum_univ_four, hE, hE, hE, hE, zero_add]; simp only [EReal.coe_add]
  have hpos : Real.exp (g 0 j - cr j) + Real.exp (g 1 j - cr j) + Real.exp (g 2 j - cr j) +
      Real.exp (g 3 j - cr j) ≠ 0 := by
    positivity
  unfold attS
  rw [hS, hE, Ideal.div_coe hpos, ← EReal.coe_mul, mul_one_div]

/-- A common positive factor exp (−c) of numerator and denominator cancels. -/
private theorem shift_cancel (a a0 a1 a2 a3 c : ℝ) :
    Real.exp (a - c) / (Real.exp (a0 - c) + Real.exp (a1 - c) + Real.exp (a2 - c) + Real.exp (a3 - c)) =
      Real.exp a / (Real.exp a0 + Real.exp a1 + Real.exp a2 + Real.exp a3) := by
  have hc : Real.exp c ≠ 0 := Real.exp_ne_zero c
  have hs : Real.exp a0 + Real.exp a1 + Real.exp a2 + Real.exp a3 ≠ 0 := by positivity
  simp only [Real.exp_sub]
  field_simp

theorem attS_eq_att (X : Row) (h : RowReal X) (c : Fin 4 → EReal) (hc : ∀ j, ∃ v : ℝ, c j = (v : EReal))
    (i j : Fin 4) : attS X c i j = att X i j := by
  choose g hg using gram_real X h
  choose cr hcr using hc
  rw [attS_coe X g hg c cr hcr, att_coe X g hg, shift_cancel]

/-! ## The row's result -/

theorem outS_eq_out (X : Row) (h : RowReal X) (c : Fin 4 → EReal) (hc : ∀ j, ∃ v : ℝ, c j = (v : EReal))
    (d : Fin 16) : outS X c d = out X d := by
  choose g hg using gram_real X h
  have ha : ∀ i j, ∃ v : ℝ, att X i j = (v : EReal) := fun i j => ⟨_, att_coe X g hg i j⟩
  choose a ha using ha
  choose x hx using h
  unfold outS out rowsum
  simp only [attS_eq_att X (fun i k => ⟨x i k, hx i k⟩) c hc, Fin.sum_univ_four, ha, hx, zero_add,
    ← EReal.coe_mul, ← EReal.coe_add]
  congr 1
  ring

/-! ## Whole arrays -/

theorem rowOf_real (x0 x1 x2 x3 : Arr) (h0 : AllReal x0) (h1 : AllReal x1) (h2 : AllReal x2) (h3 : AllReal x3)
    (r : Fin 1048576) : RowReal (rowOf x0 x1 x2 x3 r) := by
  intro i k
  show ∃ v : ℝ, (![x0, x1, x2, x3] : Fin 4 → Arr) i (ix2 r k) = (v : EReal)
  fin_cases i
  · exact h0 _
  · exact h1 _
  · exact h2 _
  · exact h3 _

theorem GattS_eq_Gatt (x0 x1 x2 x3 : Arr) (h0 : AllReal x0) (h1 : AllReal x1) (h2 : AllReal x2)
    (h3 : AllReal x3) : GattS x0 x1 x2 x3 = Gatt x0 x1 x2 x3 := by
  funext j
  unfold GattS Gatt
  exact attS_eq_att _ (rowOf_real x0 x1 x2 x3 h0 h1 h2 h3 _) _
    (colmax_real _ (rowOf_real x0 x1 x2 x3 h0 h1 h2 h3 _)) _ _

theorem GoutS_eq_Gout (x0 x1 x2 x3 : Arr) (h0 : AllReal x0) (h1 : AllReal x1) (h2 : AllReal x2)
    (h3 : AllReal x3) : GoutS x0 x1 x2 x3 = Gout x0 x1 x2 x3 := by
  funext j
  unfold GoutS Gout
  exact outS_eq_out _ (rowOf_real x0 x1 x2 x3 h0 h1 h2 h3 _) _
    (colmax_real _ (rowOf_real x0 x1 x2 x3 h0 h1 h2 h3 _)) _

end Cert.Attn

end
-- ==== Proof.Assemble.lean ====
/-
  The equivalence of the two programs at the ideal instance, assembled from their two runs.

  Under the precondition every entry of the four argument arrays is a real number. The kernel's run ends with its two
  results at the direct spelling of the specification, read off its own argument arrays; the reference's run ends with
  its two results at the shifted spelling, read off argument arrays that agree with the kernel's. On arrays of reals
  the two spellings are one function, so both programs end with equal results; each leaves its arguments unchanged.
  The kernel's run and the passage from the precondition to real entries are taken here as hypotheses.
-/
import proofs.«112280_j15083925143810_1_alg».proof.Defs
import proofs.«112280_j15083925143810_1_alg».proof.Proof.RefRun
import proofs.«112280_j15083925143810_1_alg».proof.Proof.AttnLaw
import proofs.«112280_j15083925143810_1_alg».proof.Proof.Gen.KernelIdeal
import proofs.«112280_j15083925143810_1_alg».proof.Proof.Gen.ReferenceIdeal
import proofs.«112280_j15083925143810_1_alg».proof.Proof.Gen.Pre_finite_inputs

noncomputable section

namespace Cert.Assemble

open Idealize.ShloMosaic Idealize.ShloMosaic.TcCoe Idealize.SL.Sem

/-- If the kernel's run ends at the direct spelling of the specification, and the precondition makes every argument
    entry real, then the kernel and the reference end with equal results and unchanged arguments. -/
theorem algebraic_of
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v0_0) = Cert.Attn.Gout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_v1) = Cert.Attn.Gatt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)))
    (hreal : ∀ (x0 x1 x2 x3 : FVec Ideal Cert.Pre_finite_inputs.S1048576x16 .f32),
      Cert.Pre_finite_inputs.fn (F := Ideal) x0 x1 x2 x3 = (fun _ => 1#1) →
      Cert.Attn.AllReal x0 ∧ Cert.Attn.AllReal x1 ∧ Cert.Attn.AllReal x2 ∧ Cert.Attn.AllReal x3) :
    Cert.algebraic_KernelIdeal_ReferenceIdeal := by
  intro m ρ m' ρ' hpre hagree
  refine ⟨fun c => Cert.Attn.Gout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.Attn.Gatt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), hk m ρ, ?_⟩
  refine (θ_run Cert.ReferenceIdeal.defs _ _).mono (fun r h c => ⟨?_, ?_, (h c).2.2⟩) (Cert.RefRead.ref_run m' ρ')
  · have hr := hreal _ _ _ _ (hpre c)
    rw [(h c).1, (hagree c).1, (hagree c).2.1, (hagree c).2.2.1, (hagree c).2.2.2]
    exact Cert.Attn.GoutS_eq_Gout _ _ _ _ hr.1 hr.2.1 hr.2.2.1 hr.2.2.2
  · have hr := hreal _ _ _ _ (hpre c)
    rw [(h c).2.1, (hagree c).1, (hagree c).2.1, (hagree c).2.2.1, (hagree c).2.2.2]
    exact Cert.Attn.GattS_eq_Gatt _ _ _ _ hr.1 hr.2.1 hr.2.2.1 hr.2.2.2

end Cert.Assemble

end
-- ==== Proof.lean ====
/-
  The kernel computes, for every row of four [1048576, 16] arrays x₀ … x₃, the 4 × 4 matrix of correlations
  g i j = Σ_k xᵢ[k]·xⱼ[k], the weights w i j = exp (g i j) / Σ_i' exp (g i' j) (a softmax down each column), and the result
  out[d] = Σ_i xᵢ[d]·(Σ_j w i j); it returns the results [1048576, 16] and the weights recast as [1048576, 4, 4]. The
  reference stacks the four arrays, takes the same correlations by a batched product, subtracts each column's maximum
  before exponentiating (which leaves a softmax unchanged), and forms out[d] = Σ_j Σ_i xᵢ[d]·w i j.

  Over the extended reals the two agree wherever every input is a real number: exp (g − c) / Σ exp (g' − c) = exp g / Σ exp g'
  for a real shift c, and a product distributes over a finite sum of reals, whose order of summation is immaterial. The
  precondition (every input finite) gives the reals.

  The modules: AttnSpec states one row's values in both spellings and the whole-array functions; AttnLaw proves the two
  spellings equal on rows of reals; KernelRow, KernelBlock and KernelValue read the kernel's blocks row by row, tile them
  into the whole arrays and follow the recast of the weights; RefValue and RefRun read the reference's operations index
  by index; FiniteArgs turns the precondition into reals; Assemble joins the two runs. Here the five conjuncts are put
  together: the frames are the generated ones (the reference's is its run with the results dropped), the idealization
  rewrote nothing, and the two idealized programs end with equal results.
-/
import proofs.«112280_j15083925143810_1_alg».proof.Defs
import proofs.«112280_j15083925143810_1_alg».proof.Proof.Gen.Kernel
import proofs.«112280_j15083925143810_1_alg».proof.Proof.Gen.Kernel.Skeleton
import proofs.«112280_j15083925143810_1_alg».proof.Proof.Gen.Kernel.Launch
import proofs.«112280_j15083925143810_1_alg».proof.Proof.Gen.Kernel.Points
import proofs.«112280_j15083925143810_1_alg».proof.Proof.Gen.Kernel.Frame
import proofs.«112280_j15083925143810_1_alg».proof.Proof.Gen.KernelIdeal
import proofs.«112280_j15083925143810_1_alg».proof.Proof.Gen.KernelIdeal.Skeleton
import proofs.«112280_j15083925143810_1_alg».proof.Proof.Gen.KernelIdeal.Launch
import proofs.«112280_j15083925143810_1_alg».proof.Proof.Gen.KernelIdeal.Points
import proofs.«112280_j15083925143810_1_alg».proof.Proof.Gen.KernelIdeal.Frame
import proofs.«112280_j15083925143810_1_alg».proof.Proof.Gen.ReferenceIdeal
import proofs.«112280_j15083925143810_1_alg».proof.Proof.Gen.ReferenceIdeal.Run
import proofs.«112280_j15083925143810_1_alg».proof.Proof.Gen.ReferenceIdeal.Read
import proofs.«112280_j15083925143810_1_alg».proof.Proof.Gen.Pre_finite_inputs
import proofs.«112280_j15083925143810_1_alg».proof.Proof.KernelValue
import proofs.«112280_j15083925143810_1_alg».proof.Proof.RefRun
import proofs.«112280_j15083925143810_1_alg».proof.Proof.FiniteArgs
import proofs.«112280_j15083925143810_1_alg».proof.Proof.Assemble
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ => Cert.RefRead.ref_frame m ρ

/-- The idealization rewrote no operation. -/
theorem preserves : Cert.preserves_Kernel_KernelIdeal := trivial

/-- From memories agreeing on finite arguments both idealized programs end with the results at `Gout` and the weights at
    `Gatt` of the arguments. -/
theorem algebraic : Cert.algebraic_KernelIdeal_ReferenceIdeal :=
  Cert.Assemble.algebraic_of (fun m ρ => Cert.KernelValue.kernel_run m ρ)
    (fun x0 x1 x2 x3 h => Cert.FiniteArgs.args_real x0 x1 x2 x3 h)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
